-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S256x512 : Shape := ⟨2, ![256, 512]⟩
abbrev S256 : Shape := ⟨1, ![256]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S131072x512 .f32) (main_arg1 : FVec F S256x512 .f32) (main_arg2 : FVec F S256 .f32) (main_arg3 : FVec F S256 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S131072x512 : Shape := ⟨2, ![131072, 512]⟩
abbrev S256x512 : Shape := ⟨2, ![256, 512]⟩
abbrev S256 : Shape := ⟨1, ![256]⟩
abbrev S1024x128 : Shape := ⟨2, ![1024, 128]⟩
abbrev S4096x512 : Shape := ⟨2, ![4096, 512]⟩
abbrev S32x128 : Shape := ⟨2, ![32, 128]⟩
abbrev S4096x256 : Shape := ⟨2, ![4096, 256]⟩
abbrev S1x256 : Shape := ⟨2, ![1, 256]⟩
abbrev S4096 : Shape := ⟨1, ![4096]⟩
abbrev S131072 : Shape := ⟨1, ![131072]⟩

abbrev nBuf : Space → Nat
  | .hbm => 6
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S256x512, .f32⟩
  | .hbm, ⟨2, _⟩ => ⟨S256, .f32⟩
  | .hbm, ⟨3, _⟩ => ⟨S256, .f32⟩
  | .hbm, ⟨4, _⟩ => ⟨S1024x128, .f32⟩
  | .hbm, ⟨5, _⟩ => ⟨S131072, .f32⟩
  | .local _ .vmem, ⟨0, _⟩ => ⟨S4096x512, .f32⟩
  | .local _ .vmem, ⟨1, _⟩ => ⟨S4096x512, .f32⟩
  | .local _ .vmem, ⟨2, _⟩ => ⟨S256x512, .f32⟩
  | .local _ .vmem, ⟨3, _⟩ => ⟨S256, .f32⟩
  | .local _ .vmem, ⟨4, _⟩ => ⟨S256, .f32⟩
  | .local _ .vmem, ⟨5, _⟩ => ⟨S32x128, .f32⟩
  | .local _ .vmem, ⟨6, _⟩ => ⟨S32x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  inb_S256x512_S256x512_0_0 : ∀ a, (![0, 0] : Fin 2 → Nat) a + S256x512.size a ≤ S256x512.size a
  h_S256x512 : 0 < S256x512.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  reduces_S4096x256_S4096 : S4096x256.Reduces [1] S4096
  shapeCasts_S4096_S32x128 : S4096.ShapeCasts S32x128
  inb_S32x128_S32x128_0_0 : ∀ a, (![0, 0] : Fin 2 → Nat) a + S32x128.size a ≤ S32x128.size a
  h_S32x128 : 0 < S32x128.numel
  shapeCasts_S1024x128_S131072 : S1024x128.ShapeCasts S131072
  dot_S4096x512_S256x512_S4096x256_1_1_0_0_n_n_wf : DotDims.WF S4096x512 S256x512 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S1024x128.size a
  hwx0_4 : ∀ i : grid0.Coords, EltTy.bits .f32 = 32 ∨ (Rect.block (s := S1024x128) S32x128.size (cc0_transform_4 i) (hinb0_4 i)).WholeWords (EltTy.packing .f32)

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S256x512 : Shape := ⟨2, ![256, 512]⟩
abbrev S256 : Shape := ⟨1, ![256]⟩
abbrev S131072x256 : Shape := ⟨2, ![131072, 256]⟩
abbrev S1x256 : Shape := ⟨2, ![1, 256]⟩
abbrev S_ : Shape := ⟨0, ![]⟩
abbrev S131072 : Shape := ⟨1, ![131072]⟩

abbrev nBuf : Space → Nat
  | .hbm => 29
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S256x512, .f32⟩
  | .hbm, ⟨2, _⟩ => ⟨S256, .f32⟩
  | .hbm, ⟨3, _⟩ => ⟨S256, .f32⟩
  | .hbm, ⟨4, _⟩ => ⟨S131072x256, .f32⟩
  | .hbm, ⟨5, _⟩ => ⟨S1x256, .f32⟩
  | .hbm, ⟨6, _⟩ => ⟨S131072x256, .f32⟩
  | .hbm, ⟨7, _⟩ => ⟨S131072x256, .f32⟩
  | .hbm, ⟨8, _⟩ => ⟨S131072x256, .f32⟩
  | .hbm, ⟨9, _⟩ => ⟨S131072x256, .f32⟩
  | .hbm, ⟨10, _⟩ => ⟨S_, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S131072x256, .f32⟩
  | .hbm, ⟨15, _⟩ => ⟨S131072x256, .f32⟩
  | .hbm, ⟨16, _⟩ => ⟨S131072x256, .f32⟩
  | .hbm, ⟨17, _⟩ => ⟨S1x256, .f32⟩
  | .hbm, ⟨18, _⟩ => ⟨S131072x256, .f32⟩
  | .hbm, ⟨19, _⟩ => ⟨S131072x256, .f32⟩
  | .hbm, ⟨20, _⟩ => ⟨S_, .f32⟩
  | .hbm, ⟨21, _⟩ => ⟨S131072x256, .f32⟩
  | .hbm, ⟨22, _⟩ => ⟨S131072x256, .i1⟩
  | .hbm, ⟨23, _⟩ => ⟨S131072x256, .f32⟩
  | .hbm, ⟨24, _⟩ => ⟨S131072x256, .f32⟩
  | .hbm, ⟨25, _⟩ => ⟨S131072x256, .f32⟩
  | .hbm, ⟨26, _⟩ => ⟨S_, .f32⟩
  | .hbm, ⟨27, _⟩ => ⟨S131072, .f32⟩
  | .hbm, ⟨28, _⟩ => ⟨S131072, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call1_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  reducesTo_S131072x256_S131072_d1 : S131072x256.ReducesTo [1] S131072
  h_S_ : 0 < S_.numel
  dot_S131072x512_S256x512_S131072x256_1_1_0_0_n_n_wf : DotDims.WF S131072x512 S256x512 S131072x256 [1] [1] [0] [0] [] []

variable [Facts₀]

def dot_S131072x512_S256x512_S131072x256_1_1_0_0_n_n : DotDims S131072x512 S256x512 S131072x256 where
  lhsContracting := [1]
  rhsContracting := [1]
  lhsNonContracting := [0]
  rhsNonContracting := [0]
  lhsBatch := []
  rhsBatch := []
  wf := dot_S131072x512_S256x512_S131072x256_1_1_0_0_n_n_wf

class Facts : Prop extends Facts₀ where

variable [Facts]
-- ==== Proof.RefRun.lean ====
/-
  The reference program as a straight line of host operations, and its run.

  The reference computes, for every row n of x and every weak classifier e,
    logit(n, e) = sum over k of x(n, k) * W(e, k) + b(e),
    pred(n, e)  = round-half-even (1 / (1 + exp (-logit(n, e)))),
    term(n, e)  = trunc-toward-zero (alpha(e) * pred(n, e))   (ceil below zero, floor otherwise),
    out(n)      = sign (sum over e of term(n, e)).
  The rounding, the truncation and its select are functions the module calls; here their bodies stand at the
  call sites, so that the whole program is one list of twenty-five operations. Every weakly fair execution
  runs them in order, and the result buffer ends at their composed term of the four argument arrays, which stay
  as they were.
-/
import proofs.«165919_j13700945674244_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The type of a [131072, 256] f32 array's contents. -/
abbrev Mat := (⟨S131072x256, .f32⟩ : BufTy).Contents (Elt F)

/-- The reference's operations, in program order, the called functions' bodies at their calls. -/
abbrev ops : List (HloOp τ sig (Elt F)) :=
  [ binary main_arg0 main_arg1 main_v0 ((fun l r => Host.dotGeneral dot_S131072x512_S256x512_S131072x256_1_1_0_0_n_n none l r) : (⟨S131072x512, .f32⟩ : BufTy).Contents (Elt F) → (⟨S256x512, .f32⟩ : BufTy).Contents (Elt F) → (⟨S131072x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S131072x256 ![0, 1] bcast_S1x256_S131072x256_0_1 : (⟨S1x256, .f32⟩ : BufTy).Contents (Elt F) → (⟨S131072x256, .f32⟩ : BufTy).Contents (Elt F)),
    binary main_v0 main_v2 main_v3 (addf : (⟨S131072x256, .f32⟩ : BufTy).Contents (Elt F) → (⟨S131072x256, .f32⟩ : BufTy).Contents (Elt F) → (⟨S131072x256, .f32⟩ : BufTy).Contents (Elt F)),
    unary main_v3 main_v4 (Host.negf : (⟨S131072x256, .f32⟩ : BufTy).Contents (Elt F) → (⟨S131072x256, .f32⟩ : BufTy).Contents (Elt F)),
    unary main_v4 main_v5 (Host.exp : (⟨S131072x256, .f32⟩ : BufTy).Contents (Elt F) → (⟨S131072x256, .f32⟩ : BufTy).Contents (Elt F)),
    nullary main_cst (constant S_ .f32 0x3F800000#32),
    unary main_cst main_v6 (broadcastInDim S131072x256 ![] bcast_S_S131072x256 : (⟨S_, .f32⟩ : BufTy).Contents (Elt F) → (⟨S131072x256, .f32⟩ : BufTy).Contents (Elt F)),
    binary main_v6 main_v5 main_v7 (addf : (⟨S131072x256, .f32⟩ : BufTy).Contents (Elt F) → (⟨S131072x256, .f32⟩ : BufTy).Contents (Elt F) → (⟨S131072x256, .f32⟩ : BufTy).Contents (Elt F)),
    nullary main_cst_0 (constant S_ .f32 0x3F800000#32),
    unary main_cst_0 main_v8 (broadcastInDim S131072x256 ![] bcast_S_S131072x256 : (⟨S_, .f32⟩ : BufTy).Contents (Elt F) → (⟨S131072x256, .f32⟩ : BufTy).Contents (Elt F)),
    binary main_v8 main_v7 main_v9 (Host.divf : (⟨S131072x256, .f32⟩ : BufTy).Contents (Elt F) → (⟨S131072x256, .f32⟩ : BufTy).Contents (Elt F) → (⟨S131072x256, .f32⟩ : BufTy).Contents (Elt F)),
    TRef.unary (.of main_v9) main_call0.v0 Host.roundeven,
    unary main_arg3 main_v11 (broadcastInDim S1x256 ![1] bcast_S256_S1x256_1 : (⟨S256, .f32⟩ : BufTy).Contents (Elt F) → (⟨S1x256, .f32⟩ : BufTy).Contents (Elt F)),
    unary main_v11 main_v12 (broadcastInDim S131072x256 ![0, 1] bcast_S1x256_S131072x256_0_1 : (⟨S1x256, .f32⟩ : BufTy).Contents (Elt F) → (⟨S131072x256, .f32⟩ : BufTy).Contents (Elt F)),
    binary main_v12 main_v10 main_v13 (mulf : (⟨S131072x256, .f32⟩ : BufTy).Contents (Elt F) → (⟨S131072x256, .f32⟩ : BufTy).Contents (Elt F) → (⟨S131072x256, .f32⟩ : BufTy).Contents (Elt F)),
    TRef.nullary main_call1.cst (constant S_ .f32 0x00000000#32),
    TRef.unary main_call1.cst main_call1.v0 (broadcastInDim S131072x256 ![] bcast_S_S131072x256),
    TRef.binary (.of main_v13) main_call1.v0 main_call1.v1 (cmpf .olt),
    TRef.unary (.of main_v13) main_call1.v2 Host.ceil,
    TRef.unary (.of main_v13) main_call1.v3 Host.floor,
    TRef.ternary main_call1.v1 main_call1.v2 main_call1.v3 main_call1.call0.v0 select,
    nullary main_cst_1 (constant S_ .f32 0x00000000#32),
    binary main_v14 main_cst_1 main_v15 ((fun x v => Host.reduceAdd x v reducesTo_S131072x256_S131072_d1 h_S_) : (⟨S131072x256, .f32⟩ : BufTy).Contents (Elt F) → (⟨S_, .f32⟩ : BufTy).Contents (Elt F) → (⟨S131072, .f32⟩ : BufTy).Contents (Elt F)),
    unary main_v15 main_v16 (Host.sign : (⟨S131072, .f32⟩ : BufTy).Contents (Elt F) → (⟨S131072, .f32⟩ : BufTy).Contents (Elt F)) ]

/-- The printed program is that list run in order: the called functions unfold to their operations, and
    sequencing re-associates. -/
theorem main_eq (c : Dev nD) : main (F := F) c = seq ops := by
  simp only [main, fn_round.body, fn_trunc.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub ..,
    nullary_bufs_sub .., unary_bufs_sub .., binary_bufs_sub .., unary_bufs_sub .., unary_bufs_sub .., ternary_bufs_sub ..,
    nullary_bufs_sub .., binary_bufs_sub .., unary_bufs_sub ..⟩

/-- The result as one term of the four argument arrays: the operations composed. -/
def out (x : (⟨S131072x512, .f32⟩ : BufTy).Contents (Elt F)) (w : (⟨S256x512, .f32⟩ : BufTy).Contents (Elt F))
    (b : (⟨S256, .f32⟩ : BufTy).Contents (Elt F)) (a : (⟨S256, .f32⟩ : BufTy).Contents (Elt F)) :
    (⟨S131072, .f32⟩ : BufTy).Contents (Elt F) :=
  let one : (⟨S131072x256, .f32⟩ : BufTy).Contents (Elt F) := broadcastInDim S131072x256 ![] bcast_S_S131072x256 (constant S_ .f32 0x3F800000#32)
  let logits : (⟨S131072x256, .f32⟩ : BufTy).Contents (Elt F) :=
    addf (Host.dotGeneral dot_S131072x512_S256x512_S131072x256_1_1_0_0_n_n none x w)
      (broadcastInDim S131072x256 ![0, 1] bcast_S1x256_S131072x256_0_1 (broadcastInDim S1x256 ![1] bcast_S256_S1x256_1 b))
  let preds : (⟨S131072x256, .f32⟩ : BufTy).Contents (Elt F) :=
    Host.roundeven (Host.divf one (addf one (Host.exp (Host.negf logits))))
  let prod : (⟨S131072x256, .f32⟩ : BufTy).Contents (Elt F) :=
    mulf (broadcastInDim S131072x256 ![0, 1] bcast_S1x256_S131072x256_0_1 (broadcastInDim S1x256 ![1] bcast_S256_S1x256_1 a)) preds
  let terms : (⟨S131072x256, .f32⟩ : BufTy).Contents (Elt F) :=
    select (cmpf .olt prod (broadcastInDim S131072x256 ![] bcast_S_S131072x256 (constant S_ .f32 0x00000000#32))) (Host.ceil prod) (Host.floor prod)
  Host.sign (Host.reduceAdd terms (constant S_ .f32 0x00000000#32) reducesTo_S131072x256_S131072_d1 h_S_)

attribute [local irreducible] Host.reduceAdd in
set_option maxRecDepth 8192 in
/-- The operations' fold read at the result buffer is `out` of the arguments: each operation's result is
    looked up where the next reads it. -/
theorem out_eq (V : Valuation τ sig (Elt F)) :
    after ops V (main_v16 : DevRef τ sig)
      = out (V (main_arg0 : DevRef τ sig)) (V (main_arg1 : DevRef τ sig)) (V (main_arg2 : DevRef τ sig)) (V (main_arg3 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

/-- On every device, from any memory with zero counters: every weakly fair execution of the reference
    terminates with the result at `out` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v16).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.HostRun

end
-- ==== Proof.Spec.lean ====
/-
  The mathematics both programs compute, stated once over plain index types and extended reals.

  For a data row n and a weak classifier e the logit is the inner product of row n of x with row e of W, plus b(e).
  The classifier's prediction is the logistic function of the logit rounded to the nearest integer (ties to even),
  its vote is alpha(e) times the prediction truncated toward zero, and the ensemble's answer for the row is the
  sign of the sum of the 256 votes. Nothing here needs the inputs to be finite: each step is one function of the
  extended reals, and the two programs apply the same steps in the same order.
-/
import Idealize.ShloMosaic.PureOps.Ideal.Laws
import Idealize.ShloMosaic.Lib.ValueIdx

noncomputable section

namespace Cert.Boost

open Idealize.ShloMosaic Idealize.ShloMosaic.ValueIdx

/-- The f32 word of 1.0 denotes the extended real 1. -/
theorem one_word : Ideal.ofBits .f32 0x3F800000#32 = 1 := IdealRules.sign_bit.ideal_onePat .f32

/-- One classifier's vote from its weight `a` and its logit `z`: the weight times the rounded logistic, truncated
    toward zero — the ceiling when the product is below zero, the floor otherwise. -/
def vote (a z : EReal) : EReal :=
  Scalar.select (Ideal.cmp .olt (a * Ideal.liftRound Ideal.roundHalfEven (Ideal.logistic z)) (Ideal.ofBits .f32 0x00000000#32))
    (Ideal.liftRound Int.ceil (a * Ideal.liftRound Ideal.roundHalfEven (Ideal.logistic z)))
    (Ideal.liftRound Int.floor (a * Ideal.liftRound Ideal.roundHalfEven (Ideal.logistic z)))

/-- The logistic function written out as the quotient 1 / (1 + exp (-z)) over the word of 1.0 is the logistic
    function: the word denotes 1, and the rest is the definition. -/
theorem logistic_expanded (z : EReal) :
    Ideal.div (Ideal.ofBits .f32 0x3F800000#32) (Ideal.ofBits .f32 0x3F800000#32 + Ideal.exp (-z)) = Ideal.logistic z := by
  rw [one_word]; rfl

/-- The ensemble's answer for data row `n`: the sign of the sum over the 256 classifiers of their votes, each
    logit the inner product over the 512 features plus the bias. -/
def row (x : (⟨2, ![131072, 512]⟩ : Shape).Idx → EReal) (w : (⟨2, ![256, 512]⟩ : Shape).Idx → EReal)
    (b a : (⟨1, ![256]⟩ : Shape).Idx → EReal) (n : Fin 131072) : EReal :=
  Ideal.sign (∑ e : Fin 256, vote (a (ix1 e)) ((∑ k : Fin 512, x (ix2 n k) * w (ix2 e k)) + b (ix1 e)))

/-- The answers as the length-131072 result array. -/
def answers (x : (⟨2, ![131072, 512]⟩ : Shape).Idx → EReal) (w : (⟨2, ![256, 512]⟩ : Shape).Idx → EReal)
    (b a : (⟨1, ![256]⟩ : Shape).Idx → EReal) : (⟨1, ![131072]⟩ : Shape).Idx → EReal :=
  fun i => row x w b a (i 0)

/-- The same answers laid out as 1024 rows of 128 lanes, row-major: entry (R, l) is data row 128 R + l. -/
def answersTiled (x : (⟨2, ![131072, 512]⟩ : Shape).Idx → EReal) (w : (⟨2, ![256, 512]⟩ : Shape).Idx → EReal)
    (b a : (⟨1, ![256]⟩ : Shape).Idx → EReal) : (⟨2, ![1024, 128]⟩ : Shape).Idx → EReal :=
  fun i => row x w b a ⟨128 * (i 0).val + (i 1).val, by
    have h0 : (i 0).val < 1024 := (i 0).isLt
    have h1 : (i 1).val < 128 := (i 1).isLt
    omega⟩

end Cert.Boost

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowLayout.lean ====
/-
  A vector laid along the rows of a matrix, a scalar spread over a matrix, and a flat array read as rows — each
  read at an index.

  A length-b vector v becomes an [a, b] matrix whose every row is v: the kernel does it by a cast to [1, b] and a
  broadcast, the host by two broadcasts along named axes; either way entry (p, c) is v(c). A scalar spread over any
  shape reads the scalar everywhere. A flat array of a*b entries read as a rows of b (or the other way round) keeps
  the row-major position: entry (r, l) of the matrix is entry r*b + l of the flat array.
-/
import Idealize.ShloMosaic.Lib.Pipeline.Value
import Idealize.ShloMosaic.Lib.ValueIdx
import Idealize.ShloMosaic.Lib.ValueLayout

noncomputable section

namespace Cert.RowLayout

open Idealize.ShloMosaic Idealize.ShloMosaic.ValueIdx

variable {α : Type} {a b : ℕ}

/-- The kernel's form: v cast to one row and that row broadcast over a rows reads v(c) at (p, c). -/
theorem rowVector_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The host's form: v broadcast along axis 1 into one row, the row broadcast along both axes over a rows, reads
    v(c) at (p, c). -/
theorem hostRowVector_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) := by
  refine (broadcastInDim_apply ![0, 1] h2 _ (ix2 p c) (ix2 (0 : Fin 1) c) fun ax => ?_).trans ?_
  · match ax with
    | ⟨0, _⟩ => rfl
    | ⟨1, _⟩ =>
      show c.val = if b = 1 then 0 else c.val
      split
      · have := c.isLt; omega
      · rfl
  · refine broadcastInDim_apply ![1] h1 v (ix2 (0 : Fin 1) c) (ix1 c) fun ax => ?_
    match ax with
    | ⟨0, _⟩ =>
      show c.val = if b = 1 then 0 else c.val
      split
      · have := c.isLt; omega
      · rfl

/-- A scalar broadcast over a matrix reads the scalar at every index. -/
theorem hostScalar_apply (v : (⟨0, ![]⟩ : Shape).Idx → α)
    (h : (⟨0, ![]⟩ : Shape).BroadcastsInDim ⟨2, ![a, b]⟩ (![] : Fin 0 → Fin 2)) (j : (⟨2, ![a, b]⟩ : Shape).Idx) :
    broadcastInDim ⟨2, ![a, b]⟩ ![] h v j = v ix0 :=
  broadcastInDim_apply ![] h v j ix0 fun ax => ax.elim0

variable {N : ℕ}

/-- A flat array cast to a rows of b reads, at (r, l), the flat entry at position r*b + l. -/
theorem rows_of_flat_apply (v : (⟨1, ![N]⟩ : Shape).Idx → α) (h : (⟨1, ![N]⟩ : Shape).ShapeCasts ⟨2, ![a, b]⟩)
    (r : Fin a) (l : Fin b) (q : Fin N) (hq : q.val = r.val * b + l.val) :
    shapeCast ⟨2, ![a, b]⟩ v h (ix2 r l) = v (ix1 q) :=
  shapeCast_apply v h _ _ (by
    rw [Shape.rowMajor_val_two, Shape.rowMajor_val_one]
    exact hq)

/-- A matrix of a rows of b cast to a flat array reads, at position r*b + l, the entry (r, l). -/
theorem flat_of_rows_apply (v : (⟨2, ![a, b]⟩ : Shape).Idx → α) (h : (⟨2, ![a, b]⟩ : Shape).ShapeCasts ⟨1, ![N]⟩)
    (r : Fin a) (l : Fin b) (q : Fin N) (hq : q.val = r.val * b + l.val) :
    shapeCast ⟨1, ![N]⟩ v h (ix1 q) = v (ix2 r l) :=
  shapeCast_apply v h _ _ (by
    rw [Shape.rowMajor_val_two, Shape.rowMajor_val_one]
    exact hq.symm)

end Cert.RowLayout

end
-- ==== Proof.RefValue.lean ====
/-
  The reference's result is the array of ensemble answers.

  Read at data row n, the reference's composed term is the sign of the host's sum, from the word of 0.0, over the
  256 classifiers of their votes at (n, e). A vote at (n, e) is built from four things read at that index: the
  weight row (alpha broadcast: alpha(e)), the logit (the dot product's entry, the inner product of row n of x with
  row e of W, plus the bias row: b(e)), and the two scalar words 1.0 and 0.0 spread over the matrix. With those
  read, the host's expansion 1 / (1 + exp (-z)) is the logistic function, and the vote is the specification's.
-/
import proofs.«165919_j13700945674244_2_alg».proof.Proof.RefRun
import proofs.«165919_j13700945674244_2_alg».proof.Proof.Spec
import proofs.«165919_j13700945674244_2_alg».proof.Proof.LibRowOps
import proofs.«165919_j13700945674244_2_alg».proof.Proof.LibRowLayout

noncomputable section

namespace Cert.ReferenceIdeal.HostValue

open Cert.ReferenceIdeal Cert.ReferenceIdeal.Gen Idealize.ShloMosaic Idealize.ShloMosaic.ValueIdx

/-- A vote as the host spells it, from the four values it reads at an index: the weight, the words it uses for one
    and for zero, and the logit. -/
def hostVote (al one zero z : EReal) : EReal :=
  Scalar.select (Ideal.cmp .olt (al * Ideal.liftRound Ideal.roundHalfEven (Ideal.div one (one + Ideal.exp (-z)))) zero)
    (Ideal.liftRound Int.ceil (al * Ideal.liftRound Ideal.roundHalfEven (Ideal.div one (one + Ideal.exp (-z)))))
    (Ideal.liftRound Int.floor (al * Ideal.liftRound Ideal.roundHalfEven (Ideal.div one (one + Ideal.exp (-z)))))

/-- At the words of 1.0 and 0.0 it is the specification's vote: the quotient is the logistic function. -/
theorem hostVote_eq (al z : EReal) :
    hostVote al (Ideal.ofBits .f32 0x3F800000#32) (Ideal.ofBits .f32 0x00000000#32) z = Cert.Boost.vote al z := by
  unfold hostVote Cert.Boost.vote
  rw [Cert.Boost.logistic_expanded]

variable (x : FVec Ideal S131072x512 .f32) (w : FVec Ideal S256x512 .f32) (b a : FVec Ideal S256 .f32)

/-- The matrix of votes in the reference's own operations. -/
def votes : FVec Ideal S131072x256 .f32 :=
  let one : FVec Ideal S131072x256 .f32 := broadcastInDim S131072x256 ![] bcast_S_S131072x256 (constant (F := Ideal) S_ .f32 0x3F800000#32)
  let logits : FVec Ideal S131072x256 .f32 :=
    addf (Host.dotGeneral dot_S131072x512_S256x512_S131072x256_1_1_0_0_n_n none x w)
      (broadcastInDim S131072x256 ![0, 1] bcast_S1x256_S131072x256_0_1 (broadcastInDim S1x256 ![1] bcast_S256_S1x256_1 b))
  let preds : FVec Ideal S131072x256 .f32 := Host.roundeven (Host.divf one (addf one (Host.exp (Host.negf logits))))
  let prod : FVec Ideal S131072x256 .f32 :=
    mulf (broadcastInDim S131072x256 ![0, 1] bcast_S1x256_S131072x256_0_1 (broadcastInDim S1x256 ![1] bcast_S256_S1x256_1 a)) preds
  select (cmpf .olt prod (broadcastInDim S131072x256 ![] bcast_S_S131072x256 (constant (F := Ideal) S_ .f32 0x00000000#32))) (Host.ceil prod) (Host.floor prod)

/-- The reference's result is the sign of the host's row sums of that matrix. -/
theorem out_eq_sign_sum :
    HostRun.out (F := Ideal) x w b a
      = Host.sign (Host.reduceAdd (votes x w b a) (constant (F := Ideal) S_ .f32 0x00000000#32) reducesTo_S131072x256_S131072_d1 h_S_) := rfl

/-- A vote of the matrix at (n, e) is the specification's vote of alpha(e) and the logit of row n against classifier e. -/
theorem votes_apply (n : Fin 131072) (e : Fin 256) :
    votes x w b a (ix2 n e)
      = Cert.Boost.vote (a (ix1 e)) ((∑ k : Fin 512, x (ix2 n k) * w (ix2 e k)) + b (ix1 e)) := by
  have hA : broadcastInDim S131072x256 ![0, 1] bcast_S1x256_S131072x256_0_1 (broadcastInDim S1x256 ![1] bcast_S256_S1x256_1 a) (ix2 n e) = a (ix1 e) :=
    Cert.RowLayout.hostRowVector_apply a _ _ n e
  have hB : broadcastInDim S131072x256 ![0, 1] bcast_S1x256_S131072x256_0_1 (broadcastInDim S1x256 ![1] bcast_S256_S1x256_1 b) (ix2 n e) = b (ix1 e) :=
    Cert.RowLayout.hostRowVector_apply b _ _ n e
  have hO : broadcastInDim S131072x256 ![] bcast_S_S131072x256 (constant (F := Ideal) S_ .f32 0x3F800000#32) (ix2 n e) = Ideal.ofBits .f32 0x3F800000#32 :=
    Cert.RowLayout.hostScalar_apply _ _ _
  have hZ : broadcastInDim S131072x256 ![] bcast_S_S131072x256 (constant (F := Ideal) S_ .f32 0x00000000#32) (ix2 n e) = Ideal.ofBits .f32 0x00000000#32 :=
    Cert.RowLayout.hostScalar_apply _ _ _
  have hD : Host.dotGeneral dot_S131072x512_S256x512_S131072x256_1_1_0_0_n_n none x w (ix2 n e) = ∑ k : Fin 512, x (ix2 n k) * w (ix2 e k) :=
    Cert.RowOps.dotGeneral_rows_apply dot_S131072x512_S256x512_S131072x256_1_1_0_0_n_n_wf none .single x w n e
  show hostVote
      (broadcastInDim S131072x256 ![0, 1] bcast_S1x256_S131072x256_0_1 (broadcastInDim S1x256 ![1] bcast_S256_S1x256_1 a) (ix2 n e))
      (broadcastInDim S131072x256 ![] bcast_S_S131072x256 (constant (F := Ideal) S_ .f32 0x3F800000#32) (ix2 n e))
      (broadcastInDim S131072x256 ![] bcast_S_S131072x256 (constant (F := Ideal) S_ .f32 0x00000000#32) (ix2 n e))
      (Host.dotGeneral dot_S131072x512_S256x512_S131072x256_1_1_0_0_n_n none x w (ix2 n e)
        + broadcastInDim S131072x256 ![0, 1] bcast_S1x256_S131072x256_0_1 (broadcastInDim S1x256 ![1] bcast_S256_S1x256_1 b) (ix2 n e)) = _
  rw [hA, hB, hO, hZ, hD]
  exact hostVote_eq _ _

attribute [local irreducible] Ideal.hostReduceAdd in
/-- The reference's result at data row n: the sign of the sum of the row's 256 votes. -/
theorem out_apply (n : Fin 131072) : HostRun.out (F := Ideal) x w b a (ix1 n) = Cert.Boost.row x w b a n := by
  rw [out_eq_sign_sum]
  unfold Cert.Boost.row
  refine congrArg Ideal.sign ?_
  refine (Cert.RowOps.hostRowSum_apply (votes x w b a) reducesTo_S131072x256_S131072_d1 (by decide) (Ideal.ofBits .f32 0x00000000#32) n).trans ?_
  rw [Ideal.ofBits_zero_f32, zero_add]
  exact Finset.sum_congr rfl fun e _ => votes_apply x w b a n e

/-- THE REFERENCE'S RESULT, index by index, is the ensemble's answers. -/
theorem out_eq_answers : HostRun.out (F := Ideal) x w b a = Cert.Boost.answers x w b a := by
  funext i
  obtain ⟨n, rfl⟩ : ∃ n : Fin 131072, i = ix1 n := ⟨i 0, eq_ix1 i⟩
  exact out_apply x w b a n

end Cert.ReferenceIdeal.HostValue

end
-- ==== Proof.KernelPoint.lean ====
/-
  What one grid point of the kernel stores, entry by entry.

  The body loads a block of 4096 data rows (x0), all of W (x1), b (x2) and alpha (x3), and stores a [32, 128] tile.
  Entry (r, l) of the tile is entry q = 128 r + l of a length-4096 vector; that entry is the sign — computed as
  "1 with the sign of s where |s| > 0, else s" — of the lane sum s over the 256 classifiers of their votes for block
  row q; and a vote at (q, e) is the specification's vote of alpha(e) and the logit: the matrix-unit product's entry
  (the inner product of block row q with row e of W) plus b(e). So the tile's entry (r, l) is the ensemble's answer
  for block row 128 r + l.
-/
import proofs.«165919_j13700945674244_2_alg».proof.Proof.Gen.KernelIdeal.Skeleton
import proofs.«165919_j13700945674244_2_alg».proof.Proof.Spec
import proofs.«165919_j13700945674244_2_alg».proof.Proof.LibRowOps
import proofs.«165919_j13700945674244_2_alg».proof.Proof.LibRowLayout

noncomputable section

namespace Cert.KernelIdeal.Point

open Cert.KernelIdeal Cert.KernelIdeal.Gen Idealize.ShloMosaic Idealize.ShloMosaic.ValueIdx

variable (x0 : FVec Ideal S4096x512 .f32) (x1 : FVec Ideal S256x512 .f32) (x2 x3 : FVec Ideal S256 .f32)

/-- The block's matrix of votes in the body's own operations. -/
def votes : FVec Ideal S4096x256 .f32 :=
  let v6 : FVec Ideal S4096x256 .f32 :=
    addf (matmul dot_S4096x512_S256x512_S4096x256_1_1_0_0_n_n none x0 x1 (constant S4096x256 .f32 0x00000000#32))
      (broadcastTo S4096x256 (shapeCast S1x256 x2 shapeCasts_S256_S1x256) broadcasts_S1x256_S4096x256)
  let v12 : FVec Ideal S4096x256 .f32 :=
    mulf (broadcastTo S4096x256 (shapeCast S1x256 x3 shapeCasts_S256_S1x256) broadcasts_S1x256_S4096x256) (roundeven (logistic v6))
  select (cmpf .olt v12 (broadcast S4096x256 (Scalar.ofBits .f32 0x00000000#32))) (ceil v12) (floor v12)

/-- Its lane sums: one per block row. -/
def sums : FVec Ideal S4096 .f32 :=
  multiReduction .add [1] S4096 (votes x0 x1 x2 x3) 0x00000000#32 reduces_S4096x256_S4096 (.inl rfl) rfl

/-- The stored value is the sign-by-selects of the lane sums, laid out as 32 rows of 128. -/
theorem pay_eq :
    k0_pay1 (F := Ideal) x0 x1 x2 x3
      = shapeCast S32x128
          (select (cmpf .ogt (absf (sums x0 x1 x2 x3)) (broadcast S4096 (Scalar.ofBits .f32 0x00000000#32)))
            (select (cmpf .olt (sums x0 x1 x2 x3) (constant S4096 .f32 0x00000000#32)) (constant S4096 .f32 0xBF800000#32) (constant S4096 .f32 0x3F800000#32))
            (sums x0 x1 x2 x3))
          shapeCasts_S4096_S32x128 := rfl

/-- A vote of the block at (q, e). -/
theorem votes_apply (q : Fin 4096) (e : Fin 256) :
    votes x0 x1 x2 x3 (ix2 q e)
      = Cert.Boost.vote (x3 (ix1 e)) ((∑ k : Fin 512, x0 (ix2 q k) * x1 (ix2 e k)) + x2 (ix1 e)) := by
  have hA : broadcastTo S4096x256 (shapeCast S1x256 x3 shapeCasts_S256_S1x256) broadcasts_S1x256_S4096x256 (ix2 q e) = x3 (ix1 e) :=
    Cert.RowLayout.rowVector_apply x3 _ _ q e
  have hB : broadcastTo S4096x256 (shapeCast S1x256 x2 shapeCasts_S256_S1x256) broadcasts_S1x256_S4096x256 (ix2 q e) = x2 (ix1 e) :=
    Cert.RowLayout.rowVector_apply x2 _ _ q e
  have hD : matmul dot_S4096x512_S256x512_S4096x256_1_1_0_0_n_n none x0 x1 (constant S4096x256 .f32 0x00000000#32) (ix2 q e)
      = ∑ k : Fin 512, x0 (ix2 q k) * x1 (ix2 e k) :=
    Cert.RowOps.matmul_rows_apply dot_S4096x512_S256x512_S4096x256_1_1_0_0_n_n_wf none x0 x1 q e
  show Cert.Boost.vote
      (broadcastTo S4096x256 (shapeCast S1x256 x3 shapeCasts_S256_S1x256) broadcasts_S1x256_S4096x256 (ix2 q e))
      (matmul dot_S4096x512_S256x512_S4096x256_1_1_0_0_n_n none x0 x1 (constant S4096x256 .f32 0x00000000#32) (ix2 q e)
        + broadcastTo S4096x256 (shapeCast S1x256 x2 shapeCasts_S256_S1x256) broadcasts_S1x256_S4096x256 (ix2 q e)) = _
  rw [hA, hB, hD]

/-- A lane sum at block row q. -/
theorem sums_apply (q : Fin 4096) :
    sums x0 x1 x2 x3 (ix1 q)
      = ∑ e : Fin 256, Cert.Boost.vote (x3 (ix1 e)) ((∑ k : Fin 512, x0 (ix2 q k) * x1 (ix2 e k)) + x2 (ix1 e)) :=
  (Cert.RowOps.laneSum_apply (votes x0 x1 x2 x3) reduces_S4096x256_S4096 (.inl rfl) rfl q).trans
    (Finset.sum_congr rfl fun e _ => votes_apply x0 x1 x2 x3 q e)

/-- THE STORED TILE at (r, l) is the ensemble's answer for block row q = 128 r + l. -/
theorem pay_apply (r : Fin 32) (l : Fin 128) (q : Fin 4096) (hq : q.val = r.val * 128 + l.val) :
    k0_pay1 (F := Ideal) x0 x1 x2 x3 (ix2 r l)
      = Ideal.sign (∑ e : Fin 256, Cert.Boost.vote (x3 (ix1 e)) ((∑ k : Fin 512, x0 (ix2 q k) * x1 (ix2 e k)) + x2 (ix1 e))) := by
  rw [pay_eq]
  refine (Cert.RowLayout.rows_of_flat_apply _ shapeCasts_S4096_S32x128 r l q hq).trans ?_
  refine (Ideal.jnp_sign_eq_sign_f32 (sums x0 x1 x2 x3 (ix1 q))).trans ?_
  rw [sums_apply]

end Cert.KernelIdeal.Point

end
-- ==== Proof.KernelValue.lean ====
/-
  From what each grid point stores to the kernel's result array.

  The grid has 32 points. Point t loads data rows 4096 t … 4096 t + 4095 of x (its block of window 0) and all of W, b
  and alpha, and writes rows 32 t … 32 t + 31 of a [1024, 128] array. By the per-point reading, entry (r, l) of what it
  writes is the ensemble's answer for block row 128 r + l, that is for data row 4096 t + 128 r + l = 128 (32 t + r) + l:
  the written block is block t of ONE array, the answers tiled as 1024 rows of 128. Every row R of that array lies in
  the block of point R / 32, so after the region the array is the tiled answers. The program's last line reads the
  [1024, 128] array row-major as a flat array of 131072: entry n is entry (n / 128, n % 128), the answer for data row n.
-/
import proofs.«165919_j13700945674244_2_alg».proof.Proof.Gen.KernelIdeal.Frame
import proofs.«165919_j13700945674244_2_alg».proof.Proof.KernelPoint
import proofs.«165919_j13700945674244_2_alg».proof.Proof.Spec
import proofs.«165919_j13700945674244_2_alg».proof.Proof.LibRowLayout
import Idealize.ShloMosaic.Lib.Pipeline.Value
import Idealize.ShloMosaic.Lib.StableHlo.Run

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The answers for the argument arrays as the region finds them on core c, tiled as 1024 rows of 128. -/
abbrev tiled (c : Dev nD) : S1024x128.Idx → EReal :=
  Cert.Boost.answersTiled (V m c main_arg0) (V m c main_arg1) (V m c main_arg2) (V m c main_arg3)

/-- The printed index maps over the 32 points: the x window and the output window move with the point along axis 0,
    the W, b and alpha windows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0 :=
  (by decide +kernel : ∀ t : Fin grid0.N, _)

/-- Every block row index 0 … 31 of the output is some point's. -/
theorem idx_onto : ∀ q0 : Fin 32, ∃ t : Fin cfg0.N, win0_4.index t = ![q0.val, 0] :=
  (by decide +kernel : ∀ q0 : Fin 32, ∃ t : Fin grid0.N, win0_4.index t = ![q0.val, 0])

/-! ## The input blocks, read where the point's rows say -/

/-- Block row q, column k of the x block at point t is x at data row 4096 t + q. -/
theorem blk_x (c : Dev nD) (t : Fin cfg0.N) (q : Fin 4096) (k : Fin 512) (N : Fin 131072) (hN : N.val = t.val * 4096 + q.val) :
    iblk m c 0 t (ix2 q k) = V m c main_arg0 (ix2 N k) := by
  obtain ⟨e0, e1, -⟩ := idx_facts t
  show V m c main_arg0 (((cfg0.win 0).blk t).view.emb (ix2 q k)) = V m c main_arg0 (ix2 N k)
  refine congrArg (V m c main_arg0) (funext fun a => Fin.ext ?_)
  match a with
  | ⟨0, _⟩ => show win0_0.index t (0 : Fin 2) * 4096 + 1 * q.val = N.val; omega
  | ⟨1, _⟩ => show win0_0.index t (1 : Fin 2) * 512 + 1 * k.val = k.val; omega

/-- The W block at any point is W. -/
theorem blk_w (c : Dev nD) (t : Fin cfg0.N) (e : Fin 256) (k : Fin 512) :
    iblk m c 1 t (ix2 e k) = V m c main_arg1 (ix2 e k) := by
  obtain ⟨-, -, e2, e3, -⟩ := idx_facts t
  show V m c main_arg1 (((cfg0.win 1).blk t).view.emb (ix2 e k)) = V m c main_arg1 (ix2 e k)
  refine congrArg (V m c main_arg1) (funext fun a => Fin.ext ?_)
  match a with
  | ⟨0, _⟩ => show win0_1.index t (0 : Fin 2) * 256 + 1 * e.val = e.val; omega
  | ⟨1, _⟩ => show win0_1.index t (1 : Fin 2) * 512 + 1 * k.val = k.val; omega

/-- The b block at any point is b. -/
theorem blk_b (c : Dev nD) (t : Fin cfg0.N) (e : Fin 256) :
    iblk m c 2 t (ix1 e) = V m c main_arg2 (ix1 e) := by
  obtain ⟨-, -, -, -, e4, -⟩ := idx_facts t
  show V m c main_arg2 (((cfg0.win 2).blk t).view.emb (ix1 e)) = V m c main_arg2 (ix1 e)
  refine congrArg (V m c main_arg2) (funext fun a => Fin.ext ?_)
  match a with
  | ⟨0, _⟩ => show win0_2.index t (0 : Fin 1) * 256 + 1 * e.val = e.val; omega

/-- The alpha block at any point is alpha. -/
theorem blk_a (c : Dev nD) (t : Fin cfg0.N) (e : Fin 256) :
    iblk m c 3 t (ix1 e) = V m c main_arg3 (ix1 e) := by
  obtain ⟨-, -, -, -, -, e5, -⟩ := idx_facts t
  show V m c main_arg3 (((cfg0.win 3).blk t).view.emb (ix1 e)) = V m c main_arg3 (ix1 e)
  refine congrArg (V m c main_arg3) (funext fun a => Fin.ext ?_)
  match a with
  | ⟨0, _⟩ => show win0_3.index t (0 : Fin 1) * 256 + 1 * e.val = e.val; omega

/-- Entry (r, l) of the output block at point t sits at row 32 t + r of the array. -/
theorem emb_out (t : Fin cfg0.N) (r : Fin 32) (l : Fin 128) (R : Fin 1024) (hR : R.val = t.val * 32 + r.val) :
    ((cfg0.win 4).blk t).view.emb (ix2 r l) = ix2 R l := by
  obtain ⟨-, -, -, -, -, -, e6, e7⟩ := idx_facts t
  refine funext fun a => Fin.ext ?_
  match a with
  | ⟨0, _⟩ => show win0_4.index t (0 : Fin 2) * 32 + 1 * r.val = R.val; omega
  | ⟨1, _⟩ => show win0_4.index t (1 : Fin 2) * 128 + 1 * l.val = l.val; omega

/-! ## What a point writes back -/

/-- WHAT POINT t WRITES BACK is block t of the tiled answers. -/
theorem flushed_eq (c : Dev nD) (t : Fin cfg0.N) :
    (dats m 0 c).flushed 4 t = ((cfg0.win 4).blk t).view.read (Elt Ideal) (tiled m c) := by
  show (cfg0.win 4).cut (grid0.coords t) ((dats m 0 c).after 4 t) = _
  rw [after0_4]
  unfold out0_4
  rw [View.canon_unit_zero off2]
  simp only [View.ld_unit_zero (S := S4096x512) off2, View.ld_unit_zero (S := S256x512) off2, View.ld_unit_zero (S := S256) off1]
  funext j
  have hr : (j 0).val < 32 := (j 0).isLt
  have hl : (j 1).val < 128 := (j 1).isLt
  have ht : t.val < 32 := lt_of_lt_of_eq t.isLt N_0
  obtain ⟨r, l, rfl⟩ : ∃ (r : Fin 32) (l : Fin 128), j = ix2 r l :=
    ⟨⟨(j 0).val, hr⟩, ⟨(j 1).val, hl⟩, funext fun a => Fin.ext (by match a with | ⟨0, _⟩ => rfl | ⟨1, _⟩ => rfl)⟩
  show k0_pay1 (F := Ideal) (iblk m c 0 t) (iblk m c 1 t) (iblk m c 2 t) (iblk m c 3 t) (ix2 r l)
    = tiled m c (((cfg0.win 4).blk t).view.emb (ix2 r l))
  rw [emb_out t r l ⟨t.val * 32 + r.val, by omega⟩ rfl]
  refine (Cert.KernelIdeal.Point.pay_apply (iblk m c 0 t) (iblk m c 1 t) (iblk m c 2 t) (iblk m c 3 t) r l
    ⟨r.val * 128 + l.val, by omega⟩ rfl).trans ?_
  show _ = Cert.Boost.row (V m c main_arg0) (V m c main_arg1) (V m c main_arg2) (V m c main_arg3)
    ⟨128 * (t.val * 32 + r.val) + l.val, by omega⟩
  unfold Cert.Boost.row
  refine congrArg Ideal.sign (Finset.sum_congr rfl fun e _ => ?_)
  rw [blk_a m c t e, blk_b m c t e]
  refine congrArg (fun s => Cert.Boost.vote (V m c main_arg3 (ix1 e)) (s + V m c main_arg2 (ix1 e))) (Finset.sum_congr rfl fun k _ => ?_)
  rw [blk_w m c t e k, blk_x m c t ⟨r.val * 128 + l.val, by omega⟩ k ⟨128 * (t.val * 32 + r.val) + l.val, by omega⟩ (by show 128 * (t.val * 32 + r.val) + l.val = t.val * 4096 + (r.val * 128 + l.val); omega)]

/-! ## The array after the region -/

/-- An index of the array is in point t's block iff each coordinate is in the block's range on its axis. -/
theorem mem_blk (t : Fin cfg0.N) (i : S1024x128.Idx) :
    i ∈ ((cfg0.win 4).blk t).view.set ↔ ∀ a : Fin 2, win0_4.index t a * S32x128.size a ≤ (i a).val ∧ (i a).val < win0_4.index t a * S32x128.size a + S32x128.size a := by
  show i ∈ ((View.whole main_v0).slice (win0_4.rect t)).set ↔ _
  rw [View.set_slice_whole, Rect.mem_set_unit]
  exact Iff.rfl

/-- Every index of the array is in the block of the point that owns its row: row R belongs to point R / 32. -/
theorem cover (i : S1024x128.Idx) : ∃ t : Fin cfg0.N, (cfg0.win 4).flush t = true ∧ i ∈ ((cfg0.win 4).blk t).view.set := by
  have hi0 : (i 0).val < 1024 := (i 0).isLt
  have hi1 : (i 1).val < 128 := (i 1).isLt
  obtain ⟨t, ht⟩ := idx_onto ⟨(i 0).val / 32, by omega⟩
  have q0 : win0_4.index t (0 : Fin 2) = (i 0).val / 32 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 128 ≤ (i 1).val ∧ (i 1).val < win0_4.index t (1 : Fin 2) * 128 + 128; omega

/-- THE ARRAY after the region is the tiled answers. -/
theorem final (c : Dev nD) : (dats m 0 c).arrAt 4 cfg0.N = tiled m c :=
  (dats m 0 c).arrAt_eq_of_cover 4 (tiled m c) (fun t _ => flushed_eq m c t) cover

end Cert.KernelIdeal.HandValue

end
-- ==== Proof.KernelRun.lean ====
/-
  The kernel program's run, read: its result is the array of ensemble answers.

  After the region the [1024, 128] array holds the answers tiled row-major; the program's one remaining line reads that
  array as a flat array of 131072 entries, and entry n of the flat array is entry (n / 128, n % 128) of the tiled one:
  the answer for data row 128 (n / 128) + n % 128 = n. The four argument arrays are only ever read.
-/
import proofs.«165919_j13700945674244_2_alg».proof.Proof.KernelValue

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The result buffer is unscoped and is no window's array: the region passes it by. -/
theorem result_bypasses : main_v1 ∈ Pipeline.restRefs sig (cfgs 0).spec := Pipeline.mem_restRefs_of main_v1 rfl (by decide)

/-- What the program's last line leaves in the result buffer: the ensemble's answers for the argument arrays. -/
theorem tail_eq (c : Dev nD) :
    Pipeline.afterTail₀ cfgs (dats m) 0 (V0 m) [hostOps1] c main_v1
      = Cert.Boost.answers (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v1) = _
  after_results
  have hX : Pipeline.withArrays (cfgs 0).spec c (V0 m c) (fun w => (dats m 0 c).arrAt w (cfgs 0).N) (Proc.devRef .tc main_v0) = tiled m c :=
    (Pipeline.withArrays_arr spec0 launch0.win.arr_inj c _ _ 4).trans (final m c)
  funext i
  obtain ⟨n, rfl⟩ : ∃ n : Fin 131072, i = ix1 n := ⟨i 0, eq_ix1 i⟩
  have hn : n.val < 131072 := n.isLt
  show shapeCast S131072 (Pipeline.withArrays (cfgs 0).spec c (V0 m c) (fun w => (dats m 0 c).arrAt w (cfgs 0).N) (Proc.devRef .tc main_v0))
      shapeCasts_S1024x128_S131072 (ix1 n) = _
  rw [hX]
  refine (Cert.RowLayout.flat_of_rows_apply (tiled m c) shapeCasts_S1024x128_S131072 ⟨n.val / 128, by omega⟩ ⟨n.val % 128, by omega⟩ n
    (by show n.val = n.val / 128 * 128 + n.val % 128; omega)).trans ?_
  show Cert.Boost.answersTiled (V m c main_arg0) (V m c main_arg1) (V m c main_arg2) (V m c main_arg3)
      (ix2 (⟨n.val / 128, by omega⟩ : Fin 1024) (⟨n.val % 128, by omega⟩ : Fin 128)) = _
  rw [V_main_arg0 m c, V_main_arg1 m c, V_main_arg2 m c, V_main_arg3 m c]
  show Cert.Boost.row _ _ _ _ ⟨128 * (n.val / 128) + n.val % 128, by omega⟩ = Cert.Boost.row _ _ _ _ n
  exact congrArg (Cert.Boost.row _ _ _ _) (Fin.ext (by show 128 * (n.val / 128) + n.val % 128 = n.val; omega))

/-- On every device, from any memory with zero counters: every weakly fair execution of the kernel program terminates
    with the result buffer at the ensemble's answers for the argument arrays, and the arguments unchanged. -/
theorem run : θ_run defs (onTc (τ := τ) (main (F := Ideal))) ⟨m, fun _ => 0, ρ⟩ fun r => ∀ c : Dev nD,
      r.2.mem ((c.tc : Thread nD τ).loc main_v1)
          = Cert.Boost.answers (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v1 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.HandValue

end
-- ==== Proof.lean ====
/-
  A boosted ensemble of 256 logistic weak classifiers, as a tiled kernel and as a plain array program, compute the same
  answers on the extended reals.

  For data row n and classifier e the logit is the inner product of row n of x with row e of W plus b(e); the
  classifier predicts the logistic function of the logit rounded to the nearest integer, ties to even; its vote is
  alpha(e) times the prediction truncated toward zero; the answer for the row is the sign of the sum of the votes.
  The kernel walks the 131072 rows in 32 blocks of 4096, forms each block's logits with one matrix product into a zero
  accumulator, computes the sign as "1 carrying the sign of s where |s| > 0, else s", and writes each block's 4096
  answers as 32 rows of 128 lanes; a row-major flattening afterwards restores the order of the rows. The reference forms
  all logits with one general dot product, spells the logistic function as 1 / (1 + exp (-z)), and takes the host's
  sign of the host's row sums. On the extended reals a matrix product is the exact sum of products whichever unit
  forms it, the written-out quotient is the logistic function, a row sum is the sum of the row's entries (the host's
  starts from the word of 0.0, which is 0), and the select form of the sign is the sign function at every extended
  real — so the two results agree entry by entry, with no appeal to the inputs being finite.

  The three frames are the generated frame runs of the two kernel programs and the reference's straight-line run;
  the one place where the extended-real program departs from the word-level one (the sign bit of the vote sum read as
  "the sum is below zero") is that rule's statement.
-/
import proofs.«165919_j13700945674244_2_alg».proof.Defs
import proofs.«165919_j13700945674244_2_alg».proof.Proof.Gen.Kernel
import proofs.«165919_j13700945674244_2_alg».proof.Proof.Gen.Kernel.Skeleton
import proofs.«165919_j13700945674244_2_alg».proof.Proof.Gen.Kernel.Launch
import proofs.«165919_j13700945674244_2_alg».proof.Proof.Gen.Kernel.Points
import proofs.«165919_j13700945674244_2_alg».proof.Proof.Gen.Kernel.Frame
import proofs.«165919_j13700945674244_2_alg».proof.Proof.Gen.KernelIdeal
import proofs.«165919_j13700945674244_2_alg».proof.Proof.Gen.KernelIdeal.Skeleton
import proofs.«165919_j13700945674244_2_alg».proof.Proof.Gen.KernelIdeal.Launch
import proofs.«165919_j13700945674244_2_alg».proof.Proof.Gen.KernelIdeal.Points
import proofs.«165919_j13700945674244_2_alg».proof.Proof.Gen.KernelIdeal.Frame
import proofs.«165919_j13700945674244_2_alg».proof.Proof.Gen.ReferenceIdeal
import proofs.«165919_j13700945674244_2_alg».proof.Proof.Gen.Pre_finite_inputs
import proofs.«165919_j13700945674244_2_alg».proof.Proof.RefRun
import proofs.«165919_j13700945674244_2_alg».proof.Proof.RefValue
import proofs.«165919_j13700945674244_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the same kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The sign bit of the vote sum is read as "the sum is below zero": on the extended reals the printed select is -1
    below zero and 1 otherwise, and on words the original window is -1.0 or 1.0 by the sign bit. -/
theorem preserves : Cert.preserves_Kernel_KernelIdeal := IdealRules.sign_bit.statement Cert.KernelIdeal.S4096 .f32

/-- From memories that agree on the four arguments both programs end with the result at the ensemble's answers for
    those arguments: the kernel's run and the reference's run are posted at one and the same array. -/
theorem algebraic : Cert.algebraic_KernelIdeal_ReferenceIdeal := by
  intro m ρ m' ρ' _ hagree
  refine ⟨fun c => Cert.Boost.answers (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.HostValue.out_eq_answers, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
